-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S640000x128 : Shape := ⟨2, ![640000, 128]⟩
abbrev S10000x128 : Shape := ⟨2, ![10000, 128]⟩
abbrev S640000 : Shape := ⟨1, ![640000]⟩
abbrev S256x128 : Shape := ⟨2, ![256, 128]⟩
abbrev S128 : Shape := ⟨1, ![128]⟩
abbrev S_ : Shape := ⟨0, ![]⟩

class Facts : Prop where
  bcast_S_S640000x128 : S_.BroadcastsInDim S640000x128 (![] : Fin 0 → Fin S640000x128.rank)
  reducesTo_S640000x128_S_d0_1 : S640000x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S640000x128 .f32) (main_arg1 : FVec F S10000x128 .f32) (main_arg2 : IVec S640000 32) (main_arg3 : FVec F S256x128 .f32) (main_arg4 : FVec F S128 .f32) : IVec S_ 1 :=
  let main_v0 : FVec F S640000x128 .f32 := Host.absf main_arg0
  let main_cst : FVec F S_ .f32 := constant S_ .f32 0x7F800000#32
  let main_v1 : FVec F S640000x128 .f32 := broadcastInDim S640000x128 ![] bcast_S_S640000x128 main_cst
  let main_v2 : IVec S640000x128 1 := cmpf .olt main_v0 main_v1
  let main_c : IVec S_ 1 := constantI S_ 1 1#1
  let main_v3 : IVec S_ 1 := (fun x v => Host.reduce IntOp.andi x v reducesTo_S640000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S640000x128 : Shape := ⟨2, ![640000, 128]⟩
abbrev S10000x128 : Shape := ⟨2, ![10000, 128]⟩
abbrev S640000 : Shape := ⟨1, ![640000]⟩
abbrev S256x128 : Shape := ⟨2, ![256, 128]⟩
abbrev S128 : Shape := ⟨1, ![128]⟩
abbrev S_ : Shape := ⟨0, ![]⟩
abbrev S640000x1 : Shape := ⟨2, ![640000, 1]⟩
abbrev S128x128 : Shape := ⟨2, ![128, 128]⟩
abbrev S1x128 : Shape := ⟨2, ![1, 128]⟩
abbrev S2000x128 : Shape := ⟨2, ![2000, 128]⟩

abbrev nBuf : Space → Nat
  | .hbm => 13
  | .vmem => 9
  | .smem => 0
  | _ => 0

abbrev bufTy : (tb : Table) → Fin (tcTables nBuf tb) → BufTy
  | .hbm, ⟨0, _⟩ => ⟨S640000x128, .f32⟩
  | .hbm, ⟨1, _⟩ => ⟨S10000x128, .f32⟩
  | .hbm, ⟨2, _⟩ => ⟨S640000, .i32⟩
  | .hbm, ⟨3, _⟩ => ⟨S256x128, .f32⟩
  | .hbm, ⟨4, _⟩ => ⟨S128, .f32⟩
  | .hbm, ⟨5, _⟩ => ⟨S_, .f32⟩
  | .hbm, ⟨6, _⟩ => ⟨S10000x128, .f32⟩
  | .hbm, ⟨7, _⟩ => ⟨S640000x1, .i32⟩
  | .hbm, ⟨8, _⟩ => ⟨S10000x128, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | _, _ => ⟨S640000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S10000x128 : S_.BroadcastsInDim S10000x128 (![] : Fin 0 → Fin S10000x128.rank)
  bcast_S640000_S640000x1_0 : S640000.BroadcastsInDim S640000x1 (![0] : Fin 1 → Fin S640000x1.rank)
  slices_S256x128_S128x128_0_0 : S256x128.Slices ![0, 0] S128x128
  slices_S256x128_S128x128_128_0 : S256x128.Slices ![128, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S10000x128_S640000x1_S640000x128_1_0_0_1_wf : ScatterDims.WF S10000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S10000x128.size a
  hwx0_1 : ∀ i : grid0.Coords, EltTy.bits .f32 = 32 ∨ (Rect.block (s := S10000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S10000x128.size a
  hwx0_5 : ∀ i : grid0.Coords, EltTy.bits .f32 = 32 ∨ (Rect.block (s := S10000x128) S2000x128.size (cc0_transform_5 i) (hinb0_5 i)).WholeWords (EltTy.packing .f32)

variable [Facts₀]

def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S640000x128 : Shape := ⟨2, ![640000, 128]⟩
abbrev S10000x128 : Shape := ⟨2, ![10000, 128]⟩
abbrev S640000 : Shape := ⟨1, ![640000]⟩
abbrev S256x128 : Shape := ⟨2, ![256, 128]⟩
abbrev S128 : Shape := ⟨1, ![128]⟩
abbrev S_ : Shape := ⟨0, ![]⟩
abbrev S640000x1 : Shape := ⟨2, ![640000, 1]⟩
abbrev S10000x256 : Shape := ⟨2, ![10000, 256]⟩
abbrev S1x128 : Shape := ⟨2, ![1, 128]⟩

abbrev nBuf : Space → Nat
  | .hbm => 14
  | .vmem => 0
  | .smem => 0
  | _ => 0

abbrev bufTy : (tb : Table) → Fin (tcTables nBuf tb) → BufTy
  | .hbm, ⟨0, _⟩ => ⟨S640000x128, .f32⟩
  | .hbm, ⟨1, _⟩ => ⟨S10000x128, .f32⟩
  | .hbm, ⟨2, _⟩ => ⟨S640000, .i32⟩
  | .hbm, ⟨3, _⟩ => ⟨S256x128, .f32⟩
  | .hbm, ⟨4, _⟩ => ⟨S128, .f32⟩
  | .hbm, ⟨5, _⟩ => ⟨S_, .f32⟩
  | .hbm, ⟨6, _⟩ => ⟨S10000x128, .f32⟩
  | .hbm, ⟨7, _⟩ => ⟨S640000x1, .i32⟩
  | .hbm, ⟨8, _⟩ => ⟨S10000x128, .f32⟩
  | .hbm, ⟨9, _⟩ => ⟨S10000x256, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | _, _ => ⟨S640000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S640000_S640000x1_0 : S640000.BroadcastsInDim S640000x1 (![0] : Fin 1 → Fin S640000x1.rank)
  concatenates_S10000x128_S10000x128_S10000x256_d1 : Shape.Concatenates [S10000x128, S10000x128] S10000x256 1
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  scatter_S10000x128_S640000x1_S640000x128_1_0_0_1_wf : ScatterDims.WF S10000x128 S640000x1 S640000x128 [1] [0] [0] 1
  dot_S10000x256_S256x128_S10000x128_1_0_0_1_n_n_wf : DotDims.WF S10000x256 S256x128 S10000x128 [1] [0] [0] [1] [] []

variable [Facts₀]

def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Spec.lean ====
/-
  The function both programs compute, stated once over the extended reals, and the one law that joins their two
  arrangements of it.

  A node's new features are an affine map of its own features and of the sum `agg` of the features of the edges it
  receives: row `r` of the result is `[node r ‖ agg r] · W + b`, where `W` has 256 rows — the upper 128 meet the
  node's features, the lower 128 the aggregated ones. `linear` writes that row as TWO contractions of length 128
  (the node's against the upper half of `W`, the aggregate's against the lower half) added together, then the bias.
  One contraction of length 256 over the joined row is the same number: a finite sum over `Fin (128 + 128)` is the
  sum over its first 128 indices plus the sum over its last 128 (`contraction_halves`). Only commutativity and
  associativity of addition are used, so the law holds for every extended real, the infinities included.
-/
import Idealize.ShloMosaic.PureOps.Ideal
import Idealize.ShloMosaic.Lib.ValueIdx

noncomputable section

open scoped BigOperators

namespace Cert.NodeLinear

open Idealize.ShloMosaic Idealize.ShloMosaic.ValueIdx

/-- One row per node, 128 features. -/
abbrev Nodes : Shape := ⟨2, ![10000, 128]⟩
/-- The weights: 256 input features (a node's own 128, then its aggregate's 128) by 128 output features. -/
abbrev Weights : Shape := ⟨2, ![256, 128]⟩
/-- The bias, one entry per output feature. -/
abbrev Bias : Shape := ⟨1, ![128]⟩

/-- Row `k` of the upper half of the weights (the rows a node's own features meet). -/
abbrev upper (k : Fin 128) : Fin 256 := Fin.castAdd 128 k
/-- Row `k` of the lower half of the weights (the rows the aggregated features meet): row `128 + k`. -/
abbrev lower (k : Fin 128) : Fin 256 := Fin.natAdd 128 k

/-- Entry `(r, j)` of `node · W[:128] + agg · W[128:] + b`: the node's features against the upper half of the weights,
    plus the aggregated features against the lower half, plus the bias. -/
def linear (node agg : FVec Ideal Nodes .f32) (W : FVec Ideal Weights .f32) (b : FVec Ideal Bias .f32) :
    FVec Ideal Nodes .f32 :=
  fun i => (∑ k : Fin 128, node (ix2 (i 0) k) * W (ix2 (upper k) (i 1))
      + ∑ k : Fin 128, agg (ix2 (i 0) k) * W (ix2 (lower k) (i 1)))
    + b (ix1 (i 1))

/-- A contraction over the 256 joined features is the contraction over the first 128 plus the one over the last 128. -/
theorem contraction_halves (f : Fin 256 → EReal) :
    ∑ k : Fin 256, f k = ∑ k : Fin 128, f (upper k) + ∑ k : Fin 128, f (lower k) :=
  Fin.sum_univ_add (a := 128) (b := 128) f

end Cert.NodeLinear

end
-- ==== Proof.RefValue.lean ====
/-
  The reference's result, entry by entry, is `linear` of the arguments and of the aggregated edge features.

  The reference joins each node's row with its aggregate's row into one row of 256 features and contracts it with the
  256 rows of the weights in one product, then adds the bias broadcast down the rows. Read at entry `(r, j)`: the joined
  row at a column below 128 is the node's feature, at column `128 + k` the aggregate's feature `k`
  (`joined_upper`, `joined_lower`); the contraction over 256 splits into its two halves (`contraction_halves`); the
  bias, broadcast twice, is read at `j`. The scatter-add that produces the aggregate is never opened: it is carried as
  one array on both sides.
-/
import proofs.«158361_j21509196219220_2_alg».proof.Proof.Gen.ReferenceIdeal.Read
import proofs.«158361_j21509196219220_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.NodeLinear

variable (x0 : (⟨S640000x128, .f32⟩ : BufTy).Contents (Elt Ideal)) (x1 : (⟨S10000x128, .f32⟩ : BufTy).Contents (Elt Ideal))
  (x2 : (⟨S640000, .i32⟩ : BufTy).Contents (Elt Ideal)) (x3 : (⟨S256x128, .f32⟩ : BufTy).Contents (Elt Ideal))
  (x4 : (⟨S128, .f32⟩ : BufTy).Contents (Elt Ideal))

/-- The joined row of node `r` at a column `k < 128` is the node's own feature `k`. -/
theorem joined_upper (i : S10000x128.Idx) (k : Fin 128) :
    val_main_v3 (F := Ideal) x0 x1 x2 (lidx_main_v4 i (upper k)) = x1 (ix2 (i 0) k) := by
  unfold val_main_v3
  exact concatenate_pair_apply_left 1 _ _ concatenates_S10000x128_S10000x128_S10000x256_d1 (lidx_main_v4 i (upper k)) rfl
    (ix2 (i 0) k) (fun b => match b with | ⟨0, _⟩ => rfl | ⟨1, _⟩ => rfl)

/-- The joined row of node `r` at column `128 + k` is feature `k` of the node's aggregate. -/
theorem joined_lower (i : S10000x128.Idx) (k : Fin 128) :
    val_main_v3 (F := Ideal) x0 x1 x2 (lidx_main_v4 i (lower k)) = val_main_v2 (F := Ideal) x0 x2 (ix2 (i 0) k) := by
  unfold val_main_v3
  exact concatenate_pair_apply_right 1 _ _ concatenates_S10000x128_S10000x128_S10000x256_d1 (lidx_main_v4 i (lower k)) rfl rfl
    (ix2 (i 0) k) (fun b => match b with | ⟨0, _⟩ => fun _ => rfl | ⟨1, _⟩ => fun h => absurd rfl h)
    (by show k.val + 128 = 128 + k.val; omega)

/-- The weights are read at row `k`, column `j`. -/
theorem weights_at (i : S10000x128.Idx) (k : Fin 256) : ridx_main_v4 i k = ix2 k (i 1) :=
  funext fun a => Fin.ext (by match a with | ⟨0, _⟩ => rfl | ⟨1, _⟩ => rfl)

/-- The bias, broadcast to one row and then down the rows, is read at column `j`. -/
theorem bias_at (i : S10000x128.Idx) : idx_main_v5 (idx_main_v6 i) = ix1 (i 1) :=
  funext fun a => Fin.ext (by match a with | ⟨0, _⟩ => rfl)

/-- THE REFERENCE IS `linear`: the one contraction over the joined rows is the two contractions of `linear`. -/
theorem reference_eq :
    val_main_v7 (F := Ideal) x0 x1 x2 x3 x4 = linear x1 (val_main_v2 (F := Ideal) x0 x2) x3 x4 := by
  funext i
  rw [val_main_v7_apply, val_main_v4_apply, val_main_v6_apply, val_main_v5_apply, contraction_halves]
  simp only [joined_upper, joined_lower, weights_at, bias_at, Ideal.addf_def]
  rfl

end Cert.ReferenceIdeal.RefValue

end
-- ==== Proof.Payload.lean ====
/-
  What the kernel's body stores, entry by entry.

  At each grid point the body holds a block of 2000 node rows `x0`, the matching block of aggregate rows `x1`, the two
  128 × 128 halves of the weights `x2` (upper) and `x3` (lower) and the bias as one row `x4`. It narrows all four
  matrices to bf16 — the identity on extended reals —, forms the two block products into zero accumulators, adds
  them, and adds the bias row broadcast down the 2000 rows. So the stored block at `(p, q)` is
  `∑ₖ x0[p,k]·x2[k,q] + ∑ₖ x1[p,k]·x3[k,q] + x4[0,q]` (`stored_apply`): a block product into a zero accumulator is the
  plain sum over the one contracted axis (`product_apply`), re-indexed by that axis' coordinate.
-/
import proofs.«158361_j21509196219220_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-- The left operand of the block product at output entry `j` and contraction position `q` is read in row `j 0` … -/
theorem lhs_row (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- … at the contracted column; -/
theorem lhs_col (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
/-- the right operand at the contracted row … -/
theorem rhs_row (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
/-- … in column `j 1`. -/
theorem rhs_col (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A 2000 × 128 by 128 × 128 block product into the zero accumulator, at `(p, q)`: the sum over the 128 contracted
    positions of row `p` of the left block against column `q` of the right one. -/
theorem product_apply {φ₁ φ₂ : FTy} (a : FVec Ideal S2000x128 φ₁) (w : FVec Ideal S128x128 φ₂) (p : Fin 2000) (q : Fin 128) :
    matmul dot_S2000x128_S128x128_S2000x128_1_0_0_1_n_n none a w (constant S2000x128 .f32 0x00000000#32) (ix2 p q)
      = ∑ k : Fin 128, a (ix2 p k) * w (ix2 k q) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun ax => Fin.ext (by
      match ax with
      | ⟨0, _⟩ => exact lhs_row _ _
      | ⟨1, _⟩ => exact (lhs_col _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun ax => Fin.ext (by
      match ax with
      | ⟨0, _⟩ => exact (rhs_row _ _).trans hk
      | ⟨1, _⟩ => exact rhs_col _ _)
  rw [el, er]

/-- THE STORED BLOCK at `(p, q)`: the node block's row against the upper weights, plus the aggregate block's row
    against the lower weights, plus the bias at `q`. -/
theorem stored_apply (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q)
      = (∑ k : Fin 128, x0 (ix2 p k) * x2 (ix2 k q) + ∑ k : Fin 128, x1 (ix2 p k) * x3 (ix2 k q))
        + x4 (ix2 (0 : Fin 1) q) := by
  unfold k0_pay1
  rw [addf_apply, addf_apply, product_apply, product_apply, broadcastTo_1b_ab_apply]
  simp only [truncf_apply, shapeCast_self]

end Cert.KernelIdeal.Payload

end
-- ==== Proof.Blocks.lean ====
/-
  From the stored blocks to the whole result array.

  The grid has five points; point `t` works on node rows `2000·t … 2000·t + 1999`: it is handed that block of the node
  features and of the aggregated features, the two halves of the weights whole, and the bias row, and writes back the
  same block of rows of the result. Before the launch the host has written the arrays three of the windows read:
  the aggregate (the scatter-add of the edge rows into their receivers' rows, from zero — carried here as one array
  `agg`, never opened), the upper and lower halves of the weights as slices at row 0 and row 128, and the bias reshaped
  to one row.

  So what point `t` writes back is block `t` of `linear node agg W b` (`flushed_eq`): a block's entry `(p, q)` is the
  array's entry `(2000·t + p, q)`, the node and aggregate blocks are read in the same rows, the weight halves at rows
  `k` and `128 + k`, and the bias at `q`. The five blocks tile the 10000 rows (`cover`: row `r` is in block `r / 2000`),
  hence the result array ends holding `linear node agg W b` everywhere (`final`, `run`).
-/
import proofs.«158361_j21509196219220_2_alg».proof.Proof.Gen.KernelIdeal.Value
import proofs.«158361_j21509196219220_2_alg».proof.Proof.Payload
import proofs.«158361_j21509196219220_2_alg».proof.Proof.Spec
import Idealize.ShloMosaic.Lib.StableHlo.Run
import Idealize.ShloMosaic.Lib.Pipeline.Value
import Idealize.ShloMosaic.Lib.ValueLayout

noncomputable section

open scoped BigOperators

namespace Cert.KernelIdeal.Blocks

open Cert.KernelIdeal Cert.KernelIdeal.Gen Cert.KernelIdeal.Payload
open Idealize.ShloMosaic Idealize.ShloMosaic.TcCoe Idealize.SL.Sem Idealize.ShloMosaic.StableHlo
open Idealize.ShloMosaic.ValueIdx Cert.NodeLinear
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the host writes before the launch -/

/-- The aggregated edge features: the edge rows scatter-added into their receivers' rows, starting from zero. -/
def agg (c : Dev nD) : FVec Ideal S10000x128 .f32 :=
  Host.scatterAdd scatter_S10000x128_S640000x1_S640000x128_1_0_0_1
    (broadcastInDim S10000x128 ![] bcast_S_S10000x128 (constant (F := Ideal) S_ .f32 0x00000000#32))
    (broadcastInDim S640000x1 ![0] bcast_S640000_S640000x1_0 (m ((c : Thread nD τ).loc main_arg2)))
    (m ((c : Thread nD τ).loc main_arg0))

/-- The second window's array at the launch is the aggregate. -/
theorem entry_agg (c : Dev nD) : (V m c main_v2 : S10000x128.Idx → EReal) = agg m c := by
  dsimp only [Gen.V, Gen.hostOps0]; after_results; rfl

/-- The third window's array is the upper half of the weights: the slice at row 0. -/
theorem entry_upper (c : Dev nD) : (V m c main_v3 : S128x128.Idx → EReal)
    = extractStridedSlice S128x128 ![0, 0] (m ((c : Thread nD τ).loc main_arg3)) slices_S256x128_S128x128_0_0 := by
  dsimp only [Gen.V, Gen.hostOps0]; after_results

/-- The fourth window's array is the lower half of the weights: the slice at row 128. -/
theorem entry_lower (c : Dev nD) : (V m c main_v4 : S128x128.Idx → EReal)
    = extractStridedSlice S128x128 ![128, 0] (m ((c : Thread nD τ).loc main_arg3)) slices_S256x128_S128x128_128_0 := by
  dsimp only [Gen.V, Gen.hostOps0]; after_results

/-- The fifth window's array is the bias as one row. -/
theorem entry_bias (c : Dev nD) : (V m c main_v5 : S1x128.Idx → EReal)
    = shapeCast S1x128 (m ((c : Thread nD τ).loc main_arg4)) shapeCasts_S128_S1x128 := by
  dsimp only [Gen.V, Gen.hostOps0]; after_results; rfl

/-! ## One stored entry is one entry of `linear` -/

/-- If the five loaded blocks are, where entry `y` of the stored block reads them, the rows and columns of the arrays that
    entry `i` of `linear` reads, then the stored entry is that entry of `linear`. -/
theorem stored_is_linear (x0 x1 : Vec Ideal S2000x128 .f32) (x2 x3 : Vec Ideal S128x128 .f32) (x4 : Vec Ideal S1x128 .f32)
    (node aggr : FVec Ideal Nodes .f32) (W : FVec Ideal Weights .f32) (b : FVec Ideal Bias .f32)
    (y : S2000x128.Idx) (i : S10000x128.Idx)
    (h0 : ∀ k : Fin 128, x0 (ix2 (y 0 : Fin 2000) k) = node (ix2 (i 0 : Fin 10000) k))
    (h1 : ∀ k : Fin 128, x1 (ix2 (y 0 : Fin 2000) k) = aggr (ix2 (i 0 : Fin 10000) k))
    (h2 : ∀ k : Fin 128, x2 (ix2 k (y 1 : Fin 128)) = W (ix2 (upper k) (i 1 : Fin 128)))
    (h3 : ∀ k : Fin 128, x3 (ix2 k (y 1 : Fin 128)) = W (ix2 (lower k) (i 1 : Fin 128)))
    (h4 : x4 (ix2 (0 : Fin 1) (y 1 : Fin 128)) = b (ix1 (i 1 : Fin 128))) :
    k0_pay1 (F := Ideal) x0 x1 x2 x3 x4 y = linear node aggr W b i := by
  refine (congrArg (k0_pay1 (F := Ideal) x0 x1 x2 x3 x4) (eq_ix2 y)).trans
    ((stored_apply x0 x1 x2 x3 x4 (y 0) (y 1)).trans ?_)
  unfold linear
  simp only [h0, h1, h2, h3, h4]

/-! ## What each point writes back -/

/-- The printed index maps, decided over the five points: the node and aggregate windows move with the result window
    along the rows, the weights and the bias stay at block (0, 0), and the result's block row is the point's number. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 4 :=
  (by decide +kernel : ∀ t : Fin grid0.N, _)

/-- Every block row of the result is some point's. -/
theorem idx_onto : ∀ q0 : Fin 5, ∃ t : Fin cfg0.N, win0_5.index t = ![q0.val, 0] :=
  (by decide +kernel : ∀ q0 : Fin 5, ∃ t : Fin grid0.N, win0_5.index t = ![q0.val, 0])

/-- The whole result, as one function of the arguments as launched. -/
abbrev result (c : Dev nD) : FVec Ideal S10000x128 .f32 :=
  linear (m ((c : Thread nD τ).loc main_arg1)) (agg m c) (m ((c : Thread nD τ).loc main_arg3))
    (m ((c : Thread nD τ).loc main_arg4))

/-- WHAT POINT `t` WRITES BACK is block `t` of `result`. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e51, e50⟩ := idx_facts t
  funext j
  show k0_pay1 (F := Ideal) (iblk m c 0 t) (iblk m c 1 t) (iblk m c 2 t) (iblk m c 3 t) (iblk m c 4 t) j
    = result m c (((cfg0.win 5).blk t).view.emb j)
  have hj0 : (j 0).val < 2000 := (j 0).isLt
  have hj1 : (j 1).val < 128 := (j 1).isLt
  refine stored_is_linear (iblk m c 0 t) (iblk m c 1 t) (iblk m c 2 t) (iblk m c 3 t) (iblk m c 4 t)
    (m ((c : Thread nD τ).loc main_arg1)) (agg m c) (m ((c : Thread nD τ).loc main_arg3))
    (m ((c : Thread nD τ).loc main_arg4)) j (((cfg0.win 5).blk t).view.emb j)
    (fun k => ?_) (fun k => ?_) (fun k => ?_) (fun k => ?_) ?_
  · -- the node block's row is the array's row
    show V m c main_arg1 (((cfg0.win 0).blk t).view.emb (ix2 (j 0 : Fin 2000) k)) = _
    rw [V_main_arg1]
    refine congrArg _ (funext fun a => Fin.ext ?_)
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * k.val = k.val; omega
  · -- the aggregate block's row is the array's row
    show V m c main_v2 (((cfg0.win 1).blk t).view.emb (ix2 (j 0 : Fin 2000) k)) = _
    rw [entry_agg]
    refine congrArg _ (funext fun a => Fin.ext ?_)
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 128 + 1 * k.val = k.val; omega
  · -- the upper half of the weights
    show V m c main_v3 (((cfg0.win 2).blk t).view.emb (ix2 k (j 1 : Fin 128))) = _
    rw [entry_upper]
    refine extractStridedSlice_apply _ _ _ _ _ (fun a => ?_)
    match a with
    | ⟨0, _⟩ => show k.val = 0 + (win0_2.index t (0 : Fin 2) * 128 + 1 * k.val); omega
    | ⟨1, _⟩ => show win0_5.index t (1 : Fin 2) * 128 + 1 * (j 1).val = 0 + (win0_2.index t (1 : Fin 2) * 128 + 1 * (j 1).val); omega
  · -- the lower half of the weights
    show V m c main_v4 (((cfg0.win 3).blk t).view.emb (ix2 k (j 1 : Fin 128))) = _
    rw [entry_lower]
    refine extractStridedSlice_apply _ _ _ _ _ (fun a => ?_)
    match a with
    | ⟨0, _⟩ => show 128 + k.val = 128 + (win0_3.index t (0 : Fin 2) * 128 + 1 * k.val); omega
    | ⟨1, _⟩ => show win0_5.index t (1 : Fin 2) * 128 + 1 * (j 1).val = 0 + (win0_3.index t (1 : Fin 2) * 128 + 1 * (j 1).val); omega
  · -- the bias row
    show V m c main_v5 (((cfg0.win 4).blk t).view.emb (ix2 (0 : Fin 1) (j 1 : Fin 128))) = _
    rw [entry_bias]
    refine (shapeCast_apply _ _ _ (ix1 ((((cfg0.win 5).blk t).view.emb j) 1 : Fin 128)) ?_)
    rw [Shape.rowMajor_val_two, Shape.rowMajor_val_one]
    show win0_5.index t (1 : Fin 2) * 128 + 1 * (j 1).val
      = (win0_4.index t (0 : Fin 2) * 1 + 1 * 0) * 128 + (win0_4.index t (1 : Fin 2) * 128 + 1 * (j 1).val)
    omega

/-! ## The blocks tile the array -/

/-- An index of the array is in point `t`'s block iff each coordinate is in the block's range on its axis. -/
theorem mem_blk (t : Fin cfg0.N) (i : S10000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v6).slice (win0_5.rect t)).set ↔ _
  rw [View.set_slice_whole, Rect.mem_set_unit]
  exact Iff.rfl

/-- Row `r` of the result lies in the block of point `r / 2000`: the five blocks cover the array. -/
theorem cover (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE RESULT ARRAY after the run is `result`. -/
theorem final (c : Dev nD) : (dats m 0 c).arrAt 5 cfg0.N = result m c :=
  (dats m 0 c).arrAt_eq_of_cover 5 (result m c) (fun t _ => flushed_eq m c t) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Blocks

end
-- ==== Proof.lean ====
/-
  A graph network's node update: every node's new 128 features are `[node ‖ agg] · W + b`, where `agg` is the sum of the
  features of the edges the node receives, `W` is 256 × 128 and `b` has 128 entries.

  The kernel computes the aggregate on the host (a scatter-add), cuts `W` into its upper and lower 128 rows, and on a
  grid of five blocks of 2000 nodes forms `node · W_upper + agg · W_lower + b`, the operands narrowed to bf16 (the
  identity on extended reals). The reference computes the same aggregate by the same scatter-add, joins `node` and
  `agg` along the features into rows of 256, takes one product with `W`, and adds `b`.

  Over the extended reals both are the function `linear` (Proof/Spec.lean) of the arguments and of the aggregate:
  a contraction over 256 joined features is the contraction over the first 128 plus the one over the last 128 — a
  finite sum regrouped, which uses only that addition is commutative and associative, so it holds at the infinities
  too and the finiteness of the inputs is never used. The aggregate itself is the same term of the arguments in both
  programs and is never opened.

  Modules: Proof/Spec.lean (`linear` and the regrouping), Proof/RefValue.lean (the reference's result is `linear`),
  Proof/Payload.lean (what the body stores, entry by entry), Proof/Blocks.lean (the five stored blocks are the blocks of
  `linear` and tile the result). Here: the three runs terminate with the arguments unchanged (the kernels' by their
  frame, the reference's by its run), nothing was rewritten by the idealization, and the two results agree.
-/
import proofs.«158361_j21509196219220_2_alg».proof.Defs
import proofs.«158361_j21509196219220_2_alg».proof.Proof.Gen.Kernel
import proofs.«158361_j21509196219220_2_alg».proof.Proof.Gen.Kernel.Skeleton
import proofs.«158361_j21509196219220_2_alg».proof.Proof.Gen.Kernel.Launch
import proofs.«158361_j21509196219220_2_alg».proof.Proof.Gen.Kernel.Points
import proofs.«158361_j21509196219220_2_alg».proof.Proof.Gen.Kernel.Frame
import proofs.«158361_j21509196219220_2_alg».proof.Proof.Gen.KernelIdeal
import proofs.«158361_j21509196219220_2_alg».proof.Proof.Gen.KernelIdeal.Skeleton
import proofs.«158361_j21509196219220_2_alg».proof.Proof.Gen.KernelIdeal.Launch
import proofs.«158361_j21509196219220_2_alg».proof.Proof.Gen.KernelIdeal.Points
import proofs.«158361_j21509196219220_2_alg».proof.Proof.Gen.KernelIdeal.Frame
import proofs.«158361_j21509196219220_2_alg».proof.Proof.Gen.ReferenceIdeal
import proofs.«158361_j21509196219220_2_alg».proof.Proof.Gen.Pre_finite_inputs
import proofs.«158361_j21509196219220_2_alg».proof.Proof.Gen.KernelIdeal.Value
import proofs.«158361_j21509196219220_2_alg».proof.Proof.Gen.ReferenceIdeal.Run
import proofs.«158361_j21509196219220_2_alg».proof.Proof.Gen.ReferenceIdeal.Read
import proofs.«158361_j21509196219220_2_alg».proof.Proof.Spec
import proofs.«158361_j21509196219220_2_alg».proof.Proof.RefValue
import proofs.«158361_j21509196219220_2_alg».proof.Proof.Payload
import proofs.«158361_j21509196219220_2_alg».proof.Proof.Blocks
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference, a straight line of host operations, runs to the end and writes none of its arguments. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From arguments that agree, the kernel's result array ends at `linear` of the arguments and their aggregate (the five
    stored blocks tile it), and the reference's result is the same `linear` (its one contraction over 256 features
    regrouped into the two halves); the aggregate is one term on both sides. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.reference_eq,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
